-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x5120 : Shape := ⟨3, ![8, 2048, 5120]⟩
abbrev S8x256 : Shape := ⟨2, ![8, 256]⟩
abbrev S256 : Shape := ⟨1, ![256]⟩
abbrev S128x256 : Shape := ⟨2, ![128, 256]⟩
abbrev S128 : Shape := ⟨1, ![128]⟩
abbrev S64x128 : Shape := ⟨2, ![64, 128]⟩
abbrev S5120x128 : Shape := ⟨2, ![5120, 128]⟩
abbrev S64x5120 : Shape := ⟨2, ![64, 5120]⟩
abbrev S5120x64 : Shape := ⟨2, ![5120, 64]⟩
abbrev S_ : Shape := ⟨0, ![]⟩

class Facts : Prop where
  bcast_S_S8x2048x5120 : S_.BroadcastsInDim S8x2048x5120 (![] : Fin 0 → Fin S8x2048x5120.rank)
  reducesTo_S8x2048x5120_S_d0_1_2 : S8x2048x5120.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S5120x128 : S_.BroadcastsInDim S5120x128 (![] : Fin 0 → Fin S5120x128.rank)
  reducesTo_S5120x128_S_d0_1 : S5120x128.ReducesTo [0, 1] S_
  bcast_S_S64x5120 : S_.BroadcastsInDim S64x5120 (![] : Fin 0 → Fin S64x5120.rank)
  reducesTo_S64x5120_S_d0_1 : S64x5120.ReducesTo [0, 1] S_
  bcast_S_S5120x64 : S_.BroadcastsInDim S5120x64 (![] : Fin 0 → Fin S5120x64.rank)
  reducesTo_S5120x64_S_d0_1 : S5120x64.ReducesTo [0, 1] S_

variable [Facts]

def fn_part2 {F : FTy → Type} [FloatOps F] (main_arg7 : FVec F S5120x128 .f32) (main_arg8 : FVec F S64x5120 .f32) (main_arg9 : FVec F S5120x64 .f32) (main_v33 : IVec S_ 1) : IVec S_ 1 :=
  let main_v34 : FVec F S5120x128 .f32 := Host.absf main_arg7
  let main_cst_12 : FVec F S_ .f32 := constant S_ .f32 0x7F800000#32
  let main_v35 : FVec F S5120x128 .f32 := broadcastInDim S5120x128 ![] bcast_S_S5120x128 main_cst_12
  let main_v36 : IVec S5120x128 1 := cmpf .olt main_v34 main_v35
  let main_c_13 : IVec S_ 1 := constantI S_ 1 1#1
  let main_v37 : IVec S_ 1 := (fun x v => Host.reduce IntOp.andi x v reducesTo_S5120x128_S_d0_1 h_S_) main_v36 main_c_13
  let main_v38 : IVec S_ 1 := andi main_v33 main_v37
  let main_v39 : FVec F S64x5120 .f32 := Host.absf main_arg8
  let main_cst_14 : FVec F S_ .f32 := constant S_ .f32 0x7F800000#32
  let main_v40 : FVec F S64x5120 .f32 := broadcastInDim S64x5120 ![] bcast_S_S64x5120 main_cst_14
  let main_v41 : IVec S64x5120 1 := cmpf .olt main_v39 main_v40
  let main_c_15 : IVec S_ 1 := constantI S_ 1 1#1
  let main_v42 : IVec S_ 1 := (fun x v => Host.reduce IntOp.andi x v reducesTo_S64x5120_S_d0_1 h_S_) main_v41 main_c_15
  let main_v43 : IVec S_ 1 := andi main_v38 main_v42
  let main_v44 : FVec F S5120x64 .f32 := Host.absf main_arg9
  let main_cst_16 : FVec F S_ .f32 := constant S_ .f32 0x7F800000#32
  let main_v45 : FVec F S5120x64 .f32 := broadcastInDim S5120x64 ![] bcast_S_S5120x64 main_cst_16
  let main_v46 : IVec S5120x64 1 := cmpf .olt main_v44 main_v45
  let main_c_17 : IVec S_ 1 := constantI S_ 1 1#1
  let main_v47 : IVec S_ 1 := (fun x v => Host.reduce IntOp.andi x v reducesTo_S5120x64_S_d0_1 h_S_) main_v46 main_c_17
  let main_v48 : IVec S_ 1 := andi main_v43 main_v47
  main_v48

def fn_part1 {F : FTy → Type} [FloatOps F] (main_arg4 : FVec F S128x256 .f32) (main_arg5 : FVec F S128 .f32) (main_arg6 : FVec F S64x128 .f32) (main_arg7 : FVec F S5120x128 .f32) (main_arg8 : FVec F S64x5120 .f32) (main_arg9 : FVec F S5120x64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x2048x5120 .f32) (main_arg1 : FVec F S8x256 .f32) (main_arg2 : FVec F S256 .f32) (main_arg3 : FVec F S256 .f32) (main_arg4 : FVec F S128x256 .f32) (main_arg5 : FVec F S128 .f32) (main_arg6 : FVec F S64x128 .f32) (main_arg7 : FVec F S5120x128 .f32) (main_arg8 : FVec F S64x5120 .f32) (main_arg9 : FVec F S5120x64 .f32) : IVec S_ 1 :=
  let main_v0 : FVec F S8x2048x5120 .f32 := Host.absf main_arg0
  let main_cst : FVec F S_ .f32 := constant S_ .f32 0x7F800000#32
  let main_v1 : FVec F S8x2048x5120 .f32 := broadcastInDim S8x2048x5120 ![] bcast_S_S8x2048x5120 main_cst
  let main_v2 : IVec S8x2048x5120 1 := cmpf .olt main_v0 main_v1
  let main_c : IVec S_ 1 := constantI S_ 1 1#1
  let main_v3 : IVec S_ 1 := (fun x v => Host.reduce IntOp.andi x v reducesTo_S8x2048x5120_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S8x2048x5120 : Shape := ⟨3, ![8, 2048, 5120]⟩
abbrev S8x256 : Shape := ⟨2, ![8, 256]⟩
abbrev S256 : Shape := ⟨1, ![256]⟩
abbrev S128x256 : Shape := ⟨2, ![128, 256]⟩
abbrev S128 : Shape := ⟨1, ![128]⟩
abbrev S64x128 : Shape := ⟨2, ![64, 128]⟩
abbrev S5120x128 : Shape := ⟨2, ![5120, 128]⟩
abbrev S64x5120 : Shape := ⟨2, ![64, 5120]⟩
abbrev S5120x64 : Shape := ⟨2, ![5120, 64]⟩
abbrev S_ : Shape := ⟨0, ![]⟩
abbrev S8 : Shape := ⟨1, ![8]⟩
abbrev S8x1 : Shape := ⟨2, ![8, 1]⟩
abbrev S1x256 : Shape := ⟨2, ![1, 256]⟩
abbrev S256x128 : Shape := ⟨2, ![256, 128]⟩
abbrev S8x128 : Shape := ⟨2, ![8, 128]⟩
abbrev S1x128 : Shape := ⟨2, ![1, 128]⟩
abbrev S128x64 : Shape := ⟨2, ![128, 64]⟩
abbrev S8x64 : Shape := ⟨2, ![8, 64]⟩
abbrev S128x5120 : Shape := ⟨2, ![128, 5120]⟩
abbrev S8x5120 : Shape := ⟨2, ![8, 5120]⟩
abbrev S8x1x64 : Shape := ⟨3, ![8, 1, 64]⟩
abbrev S8x1x5120 : Shape := ⟨3, ![8, 1, 5120]⟩
abbrev S1x256x5120 : Shape := ⟨3, ![1, 256, 5120]⟩
abbrev S1x1x64 : Shape := ⟨3, ![1, 1, 64]⟩
abbrev S1x1x5120 : Shape := ⟨3, ![1, 1, 5120]⟩
abbrev S256x5120 : Shape := ⟨2, ![256, 5120]⟩
abbrev S256x64 : Shape := ⟨2, ![256, 64]⟩
abbrev S1x64 : Shape := ⟨2, ![1, 64]⟩
abbrev S1x5120 : Shape := ⟨2, ![1, 5120]⟩

abbrev nBuf : Space → Nat
  | .hbm => 51
  | .vmem => 10
  | .smem => 0
  | _ => 0

abbrev bufTy : (tb : Table) → Fin (tcTables nBuf tb) → BufTy
  | .hbm, ⟨0, _⟩ => ⟨S8x2048x5120, .f32⟩
  | .hbm, ⟨1, _⟩ => ⟨S8x256, .f32⟩
  | .hbm, ⟨2, _⟩ => ⟨S256, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S64x128, .f32⟩
  | .hbm, ⟨7, _⟩ => ⟨S5120x128, .f32⟩
  | .hbm, ⟨8, _⟩ => ⟨S64x5120, .f32⟩
  | .hbm, ⟨9, _⟩ => ⟨S5120x64, .f32⟩
  | .hbm, ⟨10, _⟩ => ⟨S_, .f32⟩
  | .hbm, ⟨11, _⟩ => ⟨S8, .f32⟩
  | .hbm, ⟨12, _⟩ => ⟨S8x1, .f32⟩
  | .hbm, ⟨13, _⟩ => ⟨S_, .f32⟩
  | .hbm, ⟨14, _⟩ => ⟨S8x1, .f32⟩
  | .hbm, ⟨15, _⟩ => ⟨S8x1, .f32⟩
  | .hbm, ⟨16, _⟩ => ⟨S8x256, .f32⟩
  | .hbm, ⟨17, _⟩ => ⟨S8x256, .f32⟩
  | .hbm, ⟨18, _⟩ => ⟨S8x256, .f32⟩
  | .hbm, ⟨19, _⟩ => ⟨S_, .f32⟩
  | .hbm, ⟨20, _⟩ => ⟨S8, .f32⟩
  | .hbm, ⟨21, _⟩ => ⟨S8x1, .f32⟩
  | .hbm, ⟨22, _⟩ => ⟨S_, .f32⟩
  | .hbm, ⟨23, _⟩ => ⟨S8x1, .f32⟩
  | .hbm, ⟨24, _⟩ => ⟨S8x1, .f32⟩
  | .hbm, ⟨25, _⟩ => ⟨S8x256, .f32⟩
  | .hbm, ⟨26, _⟩ => ⟨S8x256, .f32⟩
  | .hbm, ⟨27, _⟩ => ⟨S_, .f32⟩
  | .hbm, ⟨28, _⟩ => ⟨S8x1, .f32⟩
  | .hbm, ⟨29, _⟩ => ⟨S8x1, .f32⟩
  | .hbm, ⟨30, _⟩ => ⟨S8x1, .f32⟩
  | .hbm, ⟨31, _⟩ => ⟨S8x256, .f32⟩
  | .hbm, ⟨32, _⟩ => ⟨S8x256, .f32⟩
  | .hbm, ⟨33, _⟩ => ⟨S1x256, .f32⟩
  | .hbm, ⟨34, _⟩ => ⟨S8x256, .f32⟩
  | .hbm, ⟨35, _⟩ => ⟨S8x256, .f32⟩
  | .hbm, ⟨36, _⟩ => ⟨S1x256, .f32⟩
  | .hbm, ⟨37, _⟩ => ⟨S8x256, .f32⟩
  | .hbm, ⟨38, _⟩ => ⟨S8x256, .f32⟩
  | .hbm, ⟨39, _⟩ => ⟨S256x128, .f32⟩
  | .hbm, ⟨40, _⟩ => ⟨S8x128, .f32⟩
  | .hbm, ⟨41, _⟩ => ⟨S1x128, .f32⟩
  | .hbm, ⟨42, _⟩ => ⟨S8x128, .f32⟩
  | .hbm, ⟨43, _⟩ => ⟨S8x128, .f32⟩
  | .hbm, ⟨44, _⟩ => ⟨S128x64, .f32⟩
  | .hbm, ⟨45, _⟩ => ⟨S8x64, .f32⟩
  | .hbm, ⟨46, _⟩ => ⟨S128x5120, .f32⟩
  | .hbm, ⟨47, _⟩ => ⟨S8x5120, .f32⟩
  | .hbm, ⟨48, _⟩ => ⟨S8x1x64, .f32⟩
  | .hbm, ⟨49, _⟩ => ⟨S8x1x5120, .f32⟩
  | .hbm, ⟨50, _⟩ => ⟨S8x2048x5120, .f32⟩
  | .local _ .vmem, ⟨0, _⟩ => ⟨S1x256x5120, .f32⟩
  | .local _ .vmem, ⟨1, _⟩ => ⟨S1x256x5120, .f32⟩
  | .local _ .vmem, ⟨2, _⟩ => ⟨S64x5120, .f32⟩
  | .local _ .vmem, ⟨3, _⟩ => ⟨S5120x64, .f32⟩
  | .local _ .vmem, ⟨4, _⟩ => ⟨S1x1x64, .f32⟩
  | .local _ .vmem, ⟨5, _⟩ => ⟨S1x1x64, .f32⟩
  | .local _ .vmem, ⟨6, _⟩ => ⟨S1x1x5120, .f32⟩
  | .local _ .vmem, ⟨7, _⟩ => ⟨S1x1x5120, .f32⟩
  | .local _ .vmem, ⟨8, _⟩ => ⟨S1x256x5120, .f32⟩
  | .local _ .vmem, ⟨9, _⟩ => ⟨S1x256x5120, .f32⟩
  | _, _ => ⟨S8x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S5120x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x5120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S8x256_S8_d1 : S8x256.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x256_0_1 : S8x1.BroadcastsInDim S8x256 (![0, 1] : Fin 2 → Fin S8x256.rank)
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  transposes_S128x256_S256x128_1_0 : S128x256.Transposes [1, 0] S256x128
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  transposes_S64x128_S128x64_1_0 : S64x128.Transposes [1, 0] S128x64
  transposes_S5120x128_S128x5120_1_0 : S5120x128.Transposes [1, 0] S128x5120
  shapeCasts_S8x64_S8x1x64 : S8x64.ShapeCasts S8x1x64
  shapeCasts_S8x5120_S8x1x5120 : S8x5120.ShapeCasts S8x1x5120
  inb_S1x256x5120_S1x256x5120_0_0_0 : ∀ a, (![0, 0, 0] : Fin 3 → Nat) a + S1x256x5120.size a ≤ S1x256x5120.size a
  h_S1x256x5120 : 0 < S1x256x5120.numel
  shapeCasts_S1x256x5120_S256x5120 : S1x256x5120.ShapeCasts S256x5120
  bitsLt_bf16_f32 : FTy.bits .bf16 < FTy.bits .f32
  inb_S64x5120_S64x5120_0_0 : ∀ a, (![0, 0] : Fin 2 → Nat) a + S64x5120.size a ≤ S64x5120.size a
  h_S64x5120 : 0 < S64x5120.numel
  inb_S5120x64_S5120x64_0_0 : ∀ a, (![0, 0] : Fin 2 → Nat) a + S5120x64.size a ≤ S5120x64.size a
  h_S5120x64 : 0 < S5120x64.numel
  transposes_S64x5120_p1_0_S5120x64 : S64x5120.Transposes [1, 0] S5120x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S256x64 : S1x64.Broadcasts S256x64
  transposes_S5120x64_p1_0_S64x5120 : S5120x64.Transposes [1, 0] S64x5120
  inb_S1x1x5120_S1x1x5120_0_0_0 : ∀ a, (![0, 0, 0] : Fin 3 → Nat) a + S1x1x5120.size a ≤ S1x1x5120.size a
  h_S1x1x5120 : 0 < S1x1x5120.numel
  shapeCasts_S1x1x5120_S1x5120 : S1x1x5120.ShapeCasts S1x5120
  broadcasts_S1x5120_S256x5120 : S1x5120.Broadcasts S256x5120
  shapeCasts_S256x5120_S1x256x5120 : S256x5120.ShapeCasts S1x256x5120
  dot_S8x256_S256x128_S8x128_1_0_0_1_n_n_wf : DotDims.WF S8x256 S256x128 S8x128 [1] [0] [0] [1] [] []
  dot_S8x128_S128x64_S8x64_1_0_0_1_n_n_wf : DotDims.WF S8x128 S128x64 S8x64 [1] [0] [0] [1] [] []
  dot_S8x128_S128x5120_S8x5120_1_0_0_1_n_n_wf : DotDims.WF S8x128 S128x5120 S8x5120 [1] [0] [0] [1] [] []
  dot_S256x5120_S5120x64_S256x64_1_0_0_1_n_n_wf : DotDims.WF S256x5120 S5120x64 S256x64 [1] [0] [0] [1] [] []
  dot_S256x64_S64x5120_S256x5120_1_0_0_1_n_n_wf : DotDims.WF S256x64 S64x5120 S256x5120 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x5120.size a ≤ S8x2048x5120.size a
  hwx0_0 : ∀ i : grid0.Coords, EltTy.bits .f32 = 32 ∨ (Rect.block (s := S8x2048x5120) S1x256x5120.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x5120.size a ≤ S64x5120.size a
  hwx0_1 : ∀ i : grid0.Coords, EltTy.bits .f32 = 32 ∨ (Rect.block (s := S64x5120) S64x5120.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5120x64.size a ≤ S5120x64.size a
  hwx0_2 : ∀ i : grid0.Coords, EltTy.bits .f32 = 32 ∨ (Rect.block (s := S5120x64) S5120x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S8x1x64.size a
  hwx0_3 : ∀ i : grid0.Coords, EltTy.bits .f32 = 32 ∨ (Rect.block (s := S8x1x64) S1x1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x5120.size a ≤ S8x1x5120.size a
  hwx0_4 : ∀ i : grid0.Coords, EltTy.bits .f32 = 32 ∨ (Rect.block (s := S8x1x5120) S1x1x5120.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x5120.size a ≤ S8x2048x5120.size a
  hwx0_5 : ∀ i : grid0.Coords, EltTy.bits .f32 = 32 ∨ (Rect.block (s := S8x2048x5120) S1x256x5120.size (cc0_transform_5 i) (hinb0_5 i)).WholeWords (EltTy.packing .f32)

variable [Facts₀]

def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf
def dot_S8x128_S128x64_S8x64_1_0_0_1_n_n : DotDims S8x128 S128x64 S8x64 where
  lhsContracting := [1]
  rhsContracting := [0]
  lhsNonContracting := [0]
  rhsNonContracting := [1]
  lhsBatch := []
  rhsBatch := []
  wf := dot_S8x128_S128x64_S8x64_1_0_0_1_n_n_wf
def dot_S8x128_S128x5120_S8x5120_1_0_0_1_n_n : DotDims S8x128 S128x5120 S8x5120 where
  lhsContracting := [1]
  rhsContracting := [0]
  lhsNonContracting := [0]
  rhsNonContracting := [1]
  lhsBatch := []
  rhsBatch := []
  wf := dot_S8x128_S128x5120_S8x5120_1_0_0_1_n_n_wf
def dot_S256x5120_S5120x64_S256x64_1_0_0_1_n_n : DotDims S256x5120 S5120x64 S256x64 where
  lhsContracting := [1]
  rhsContracting := [0]
  lhsNonContracting := [0]
  rhsNonContracting := [1]
  lhsBatch := []
  rhsBatch := []
  wf := dot_S256x5120_S5120x64_S256x64_1_0_0_1_n_n_wf
def dot_S256x64_S64x5120_S256x5120_1_0_0_1_n_n : DotDims S256x64 S64x5120 S256x5120 where
  lhsContracting := [1]
  rhsContracting := [0]
  lhsNonContracting := [0]
  rhsNonContracting := [1]
  lhsBatch := []
  rhsBatch := []
  wf := dot_S256x64_S64x5120_S256x5120_1_0_0_1_n_n_wf

abbrev win0_0 : Pipeline.Window sig grid0 :=
  Pipeline.Window.ofSpec (Memref.whole main_arg0) S1x256x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S64x5120.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S5120x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x1x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x1x5120.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x256x5120.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x5120 : Shape := ⟨3, ![8, 2048, 5120]⟩
abbrev S8x256 : Shape := ⟨2, ![8, 256]⟩
abbrev S256 : Shape := ⟨1, ![256]⟩
abbrev S128x256 : Shape := ⟨2, ![128, 256]⟩
abbrev S128 : Shape := ⟨1, ![128]⟩
abbrev S64x128 : Shape := ⟨2, ![64, 128]⟩
abbrev S5120x128 : Shape := ⟨2, ![5120, 128]⟩
abbrev S64x5120 : Shape := ⟨2, ![64, 5120]⟩
abbrev S5120x64 : Shape := ⟨2, ![5120, 64]⟩
abbrev S_ : Shape := ⟨0, ![]⟩
abbrev S8 : Shape := ⟨1, ![8]⟩
abbrev S8x1 : Shape := ⟨2, ![8, 1]⟩
abbrev S1x256 : Shape := ⟨2, ![1, 256]⟩
abbrev S256x128 : Shape := ⟨2, ![256, 128]⟩
abbrev S8x128 : Shape := ⟨2, ![8, 128]⟩
abbrev S1x128 : Shape := ⟨2, ![1, 128]⟩
abbrev S128x64 : Shape := ⟨2, ![128, 64]⟩
abbrev S8x64 : Shape := ⟨2, ![8, 64]⟩
abbrev S128x5120 : Shape := ⟨2, ![128, 5120]⟩
abbrev S8x5120 : Shape := ⟨2, ![8, 5120]⟩
abbrev S8x2048x64 : Shape := ⟨3, ![8, 2048, 64]⟩
abbrev S8x1x64 : Shape := ⟨3, ![8, 1, 64]⟩
abbrev S8x1x5120 : Shape := ⟨3, ![8, 1, 5120]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x5120, .f32⟩
  | .hbm, ⟨1, _⟩ => ⟨S8x256, .f32⟩
  | .hbm, ⟨2, _⟩ => ⟨S256, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S64x128, .f32⟩
  | .hbm, ⟨7, _⟩ => ⟨S5120x128, .f32⟩
  | .hbm, ⟨8, _⟩ => ⟨S64x5120, .f32⟩
  | .hbm, ⟨9, _⟩ => ⟨S5120x64, .f32⟩
  | .hbm, ⟨10, _⟩ => ⟨S_, .f32⟩
  | .hbm, ⟨11, _⟩ => ⟨S8, .f32⟩
  | .hbm, ⟨12, _⟩ => ⟨S8x1, .f32⟩
  | .hbm, ⟨13, _⟩ => ⟨S_, .f32⟩
  | .hbm, ⟨14, _⟩ => ⟨S8x1, .f32⟩
  | .hbm, ⟨15, _⟩ => ⟨S8x1, .f32⟩
  | .hbm, ⟨16, _⟩ => ⟨S8x256, .f32⟩
  | .hbm, ⟨17, _⟩ => ⟨S8x256, .f32⟩
  | .hbm, ⟨18, _⟩ => ⟨S8x256, .f32⟩
  | .hbm, ⟨19, _⟩ => ⟨S_, .f32⟩
  | .hbm, ⟨20, _⟩ => ⟨S8, .f32⟩
  | .hbm, ⟨21, _⟩ => ⟨S8x1, .f32⟩
  | .hbm, ⟨22, _⟩ => ⟨S_, .f32⟩
  | .hbm, ⟨23, _⟩ => ⟨S8x1, .f32⟩
  | .hbm, ⟨24, _⟩ => ⟨S8x1, .f32⟩
  | .hbm, ⟨25, _⟩ => ⟨S8x256, .f32⟩
  | .hbm, ⟨26, _⟩ => ⟨S8x256, .f32⟩
  | .hbm, ⟨27, _⟩ => ⟨S_, .f32⟩
  | .hbm, ⟨28, _⟩ => ⟨S8x1, .f32⟩
  | .hbm, ⟨29, _⟩ => ⟨S8x1, .f32⟩
  | .hbm, ⟨30, _⟩ => ⟨S8x1, .f32⟩
  | .hbm, ⟨31, _⟩ => ⟨S8x256, .f32⟩
  | .hbm, ⟨32, _⟩ => ⟨S8x256, .f32⟩
  | .hbm, ⟨33, _⟩ => ⟨S1x256, .f32⟩
  | .hbm, ⟨34, _⟩ => ⟨S8x256, .f32⟩
  | .hbm, ⟨35, _⟩ => ⟨S8x256, .f32⟩
  | .hbm, ⟨36, _⟩ => ⟨S1x256, .f32⟩
  | .hbm, ⟨37, _⟩ => ⟨S8x256, .f32⟩
  | .hbm, ⟨38, _⟩ => ⟨S8x256, .f32⟩
  | .hbm, ⟨39, _⟩ => ⟨S256x128, .f32⟩
  | .hbm, ⟨40, _⟩ => ⟨S8x128, .f32⟩
  | .hbm, ⟨41, _⟩ => ⟨S1x128, .f32⟩
  | .hbm, ⟨42, _⟩ => ⟨S8x128, .f32⟩
  | .hbm, ⟨43, _⟩ => ⟨S8x128, .f32⟩
  | .hbm, ⟨44, _⟩ => ⟨S128x64, .f32⟩
  | .hbm, ⟨45, _⟩ => ⟨S8x64, .f32⟩
  | .hbm, ⟨46, _⟩ => ⟨S128x5120, .f32⟩
  | .hbm, ⟨47, _⟩ => ⟨S8x5120, .f32⟩
  | .hbm, ⟨48, _⟩ => ⟨S8x2048x64, .f32⟩
  | .hbm, ⟨49, _⟩ => ⟨S8x1x64, .f32⟩
  | .hbm, ⟨50, _⟩ => ⟨S8x2048x64, .f32⟩
  | .hbm, ⟨51, _⟩ => ⟨S8x2048x64, .f32⟩
  | .hbm, ⟨52, _⟩ => ⟨S8x2048x5120, .f32⟩
  | .hbm, ⟨53, _⟩ => ⟨S8x1x5120, .f32⟩
  | .hbm, ⟨54, _⟩ => ⟨S8x2048x5120, .f32⟩
  | .hbm, ⟨55, _⟩ => ⟨S8x2048x5120, .f32⟩
  | .hbm, ⟨56, _⟩ => ⟨S_, .f32⟩
  | .hbm, ⟨57, _⟩ => ⟨S8x2048x5120, .f32⟩
  | .hbm, ⟨58, _⟩ => ⟨S8x2048x5120, .f32⟩
  | _, _ => ⟨S8x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  reducesTo_S8x256_S8_d1 : S8x256.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x256_0_1 : S8x1.BroadcastsInDim S8x256 (![0, 1] : Fin 2 → Fin S8x256.rank)
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  transposes_S128x256_S256x128_1_0 : S128x256.Transposes [1, 0] S256x128
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  transposes_S64x128_S128x64_1_0 : S64x128.Transposes [1, 0] S128x64
  transposes_S5120x128_S128x5120_1_0 : S5120x128.Transposes [1, 0] S128x5120
  bcast_S8x64_S8x1x64_0_2 : S8x64.BroadcastsInDim S8x1x64 (![0, 2] : Fin 2 → Fin S8x1x64.rank)
  bcast_S8x1x64_S8x2048x64_0_1_2 : S8x1x64.BroadcastsInDim S8x2048x64 (![0, 1, 2] : Fin 3 → Fin S8x2048x64.rank)
  bcast_S8x5120_S8x1x5120_0_2 : S8x5120.BroadcastsInDim S8x1x5120 (![0, 2] : Fin 2 → Fin S8x1x5120.rank)
  bcast_S8x1x5120_S8x2048x5120_0_1_2 : S8x1x5120.BroadcastsInDim S8x2048x5120 (![0, 1, 2] : Fin 3 → Fin S8x2048x5120.rank)
  bcast_S_S8x2048x5120 : S_.BroadcastsInDim S8x2048x5120 (![] : Fin 0 → Fin S8x2048x5120.rank)
  dot_S8x256_S256x128_S8x128_1_0_0_1_n_n_wf : DotDims.WF S8x256 S256x128 S8x128 [1] [0] [0] [1] [] []
  dot_S8x128_S128x64_S8x64_1_0_0_1_n_n_wf : DotDims.WF S8x128 S128x64 S8x64 [1] [0] [0] [1] [] []
  dot_S8x128_S128x5120_S8x5120_1_0_0_1_n_n_wf : DotDims.WF S8x128 S128x5120 S8x5120 [1] [0] [0] [1] [] []
  dot_S8x2048x5120_S64x5120_S8x2048x64_2_1_01_0_n_n_wf : DotDims.WF S8x2048x5120 S64x5120 S8x2048x64 [2] [1] [0, 1] [0] [] []
  dot_S8x2048x64_S5120x64_S8x2048x5120_2_1_01_0_n_n_wf : DotDims.WF S8x2048x64 S5120x64 S8x2048x5120 [2] [1] [0, 1] [0] [] []

variable [Facts₀]

def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf
def dot_S8x128_S128x64_S8x64_1_0_0_1_n_n : DotDims S8x128 S128x64 S8x64 where
  lhsContracting := [1]
  rhsContracting := [0]
  lhsNonContracting := [0]
  rhsNonContracting := [1]
  lhsBatch := []
  rhsBatch := []
  wf := dot_S8x128_S128x64_S8x64_1_0_0_1_n_n_wf
def dot_S8x128_S128x5120_S8x5120_1_0_0_1_n_n : DotDims S8x128 S128x5120 S8x5120 where
  lhsContracting := [1]
  rhsContracting := [0]
  lhsNonContracting := [0]
  rhsNonContracting := [1]
  lhsBatch := []
  rhsBatch := []
  wf := dot_S8x128_S128x5120_S8x5120_1_0_0_1_n_n_wf
def dot_S8x2048x5120_S64x5120_S8x2048x64_2_1_01_0_n_n : DotDims S8x2048x5120 S64x5120 S8x2048x64 where
  lhsContracting := [2]
  rhsContracting := [1]
  lhsNonContracting := [0, 1]
  rhsNonContracting := [0]
  lhsBatch := []
  rhsBatch := []
  wf := dot_S8x2048x5120_S64x5120_S8x2048x64_2_1_01_0_n_n_wf
def dot_S8x2048x64_S5120x64_S8x2048x5120_2_1_01_0_n_n : DotDims S8x2048x64 S5120x64 S8x2048x5120 where
  lhsContracting := [2]
  rhsContracting := [1]
  lhsNonContracting := [0, 1]
  rhsNonContracting := [0]
  lhsBatch := []
  rhsBatch := []
  wf := dot_S8x2048x64_S5120x64_S8x2048x5120_2_1_01_0_n_n_wf

class Facts : Prop extends Facts₀ where

variable [Facts]
-- ==== Proof.GatedLowRank.lean ====
/-
  The gated low-rank map, as one function of its five arrays.

  For a batch `b`, a position `s` and an output feature `o`,

      out (b, s, o) = ((Σ_r ((Σ_d x (b, s, d) · W_A (r, d)) · g_A (b, r)) · W_B (o, r)) · g_B (b, o)) · 2

  over the extended reals: the input row is projected onto the 64 rank directions, each projection is scaled by the
  batch's gate `g_A`, the scaled projections are expanded to the 5120 output features, and each feature is scaled by the
  batch's gate `g_B` and by the constant `2`, kept as the binary32 word that denotes it. Products and sums are taken in
  this order and grouping; nothing here is rearranged, so no finiteness is asked of the entries.
-/
import Idealize.ShloMosaic.PureOps.Ideal
import Idealize.ShloMosaic.Lib.ValueIdx

noncomputable section

namespace Cert.GatedLowRank

open Idealize.ShloMosaic Idealize.ShloMosaic.ValueIdx

/-- The constant `2`, as the binary32 word both programs carry. -/
abbrev two : EReal := Ideal.ofBits .f32 0x40000000#32

/-- The projection of the input row `(b, s)` onto rank direction `r`, scaled by the batch's first gate. -/
def proj (x : (⟨3, ![8, 2048, 5120]⟩ : Shape).Idx → EReal) (wa : (⟨2, ![64, 5120]⟩ : Shape).Idx → EReal)
    (gA : (⟨2, ![8, 64]⟩ : Shape).Idx → EReal) (b : Fin 8) (s : Fin 2048) (r : Fin 64) : EReal :=
  (∑ d : Fin 5120, x (ix3 b s d) * wa (ix2 r d)) * gA (ix2 b r)

/-- The gated low-rank map at `(b, s, o)`. -/
def out (x : (⟨3, ![8, 2048, 5120]⟩ : Shape).Idx → EReal) (wa : (⟨2, ![64, 5120]⟩ : Shape).Idx → EReal)
    (wb : (⟨2, ![5120, 64]⟩ : Shape).Idx → EReal) (gA : (⟨2, ![8, 64]⟩ : Shape).Idx → EReal)
    (gB : (⟨2, ![8, 5120]⟩ : Shape).Idx → EReal) : (⟨3, ![8, 2048, 5120]⟩ : Shape).Idx → EReal :=
  fun i => ((∑ r : Fin 64, proj x wa gA (i 0) (i 1) r * wb (ix2 (i 2) r)) * gB (ix2 (i 0) (i 2))) * two

end Cert.GatedLowRank

end
-- ==== Proof.ReferenceOut.lean ====
/-
  The reference computes the gated low-rank map.

  Read one operation at a time, the reference's result at `(b, s, o)` is the product with the word for `2` of
  `(Σ_r a (b, s, r) · W_B (o, r)) · g_B (b, o)`, where `a (b, s, r) = (Σ_d x (b, s, d) · W_A (r, d)) · g_A (b, r)` and the two
  gates `g_A`, `g_B` are the results of the two small matrix products that end its gate computation: the two broadcasts of
  each gate (a unit middle axis added, then repeated along the 2048 positions) read entry `(b, r)`, respectively
  `(b, o)`, at every position. That is the specification, term for term.
-/
import proofs.«109962_j67353677136188_2_alg».proof.Proof.Gen.ReferenceIdeal.Read
import proofs.«109962_j67353677136188_2_alg».proof.Proof.GatedLowRank

noncomputable section

namespace Cert.ReferenceOut

open Cert.ReferenceIdeal Cert.ReferenceIdeal.Read Idealize.ShloMosaic Idealize.ShloMosaic.ValueIdx

/-- The row of `x` and the row of `W_A` that entry `(b, s, r)` of the first product contracts. -/
theorem lhs_first (i : S8x2048x5120.Idx) (k : Fin 64) (d : Fin 5120) :
    lidx_main_v33 (lidx_main_v37 i k) d = ix3 (i 0) (i 1) d :=
  funext fun a => Fin.ext (by match a with | ⟨0, _⟩ => rfl | ⟨1, _⟩ => rfl | ⟨2, _⟩ => rfl)

theorem rhs_first (i : S8x2048x5120.Idx) (k : Fin 64) (d : Fin 5120) :
    ridx_main_v33 (lidx_main_v37 i k) d = ix2 k d :=
  funext fun a => Fin.ext (by match a with | ⟨0, _⟩ => rfl | ⟨1, _⟩ => rfl)

/-- The first gate's entry that scales entry `(b, s, r)` of the first product: `(b, r)`, whatever the position. -/
theorem gate_first (i : S8x2048x5120.Idx) (k : Fin 64) :
    idx_main_v34 (idx_main_v35 (lidx_main_v37 i k)) = ix2 (i 0) k :=
  funext fun a => Fin.ext (by match a with | ⟨0, _⟩ => rfl | ⟨1, _⟩ => rfl)

/-- The row of `W_B` that entry `(b, s, o)` of the second product contracts. -/
theorem rhs_second (i : S8x2048x5120.Idx) (k : Fin 64) : ridx_main_v37 i k = ix2 (i 2) k :=
  funext fun a => Fin.ext (by match a with | ⟨0, _⟩ => rfl | ⟨1, _⟩ => rfl)

/-- The second gate's entry that scales entry `(b, s, o)` of the second product: `(b, o)`. -/
theorem gate_second (i : S8x2048x5120.Idx) : idx_main_v38 (idx_main_v39 i) = ix2 (i 0) (i 2) :=
  funext fun a => Fin.ext (by match a with | ⟨0, _⟩ => rfl | ⟨1, _⟩ => rfl)

/-- The reference's result is the gated low-rank map of `x`, `W_A`, `W_B` and the two gates its own gate computation ends in. -/
theorem result_eq (x0 : (⟨S8x2048x5120, .f32⟩ : BufTy).Contents (Elt Ideal)) (x1 : (⟨S8x256, .f32⟩ : BufTy).Contents (Elt Ideal))
    (x2 x3 : (⟨S256, .f32⟩ : BufTy).Contents (Elt Ideal)) (x4 : (⟨S128x256, .f32⟩ : BufTy).Contents (Elt Ideal))
    (x5 : (⟨S128, .f32⟩ : BufTy).Contents (Elt Ideal)) (x6 : (⟨S64x128, .f32⟩ : BufTy).Contents (Elt Ideal))
    (x7 : (⟨S5120x128, .f32⟩ : BufTy).Contents (Elt Ideal)) (x8 : (⟨S64x5120, .f32⟩ : BufTy).Contents (Elt Ideal))
    (x9 : (⟨S5120x64, .f32⟩ : BufTy).Contents (Elt Ideal)) :
    val_main_v42 (F := Ideal) x0 x1 x2 x3 x4 x5 x6 x7 x8 x9
      = Cert.GatedLowRank.out x0 x8 x9 (val_main_v30 (F := Ideal) x1 x2 x3 x4 x5 x6) (val_main_v32 (F := Ideal) x1 x2 x3 x4 x5 x7) := by
  funext i
  rw [val_main_v42_apply, val_main_v40_apply, val_main_v37_apply, val_main_v39_apply, val_main_v38_apply,
    val_main_v41_apply, val_main_cst_4_apply, gate_second]
  simp only [val_main_v36_apply, val_main_v33_apply, val_main_v35_apply, val_main_v34_apply, lhs_first, rhs_first,
    gate_first, rhs_second, Ideal.mulf_def, Ideal.ofBits_def]
  rfl

end Cert.ReferenceOut

end
-- ==== Proof.LibPlainMatmul.lean ====
/-
  A matrix product read at an index given by coordinates, at the ideal values, for any extents and element formats:
  for the plain dimension numbers — an `M × K` left operand and a `K × N` right operand contracted over the left's
  columns and the right's rows, no batch axis — the product accumulated into zero is, at `(i, j)`,
  the sum over `k` of `l (i, k) · r (k, j)`. The sum over the contraction shape's one-coordinate indices is
  re-indexed over `Fin K`.
-/
import Idealize.ShloMosaic.Lib.ValueIdx
import Idealize.ShloMosaic.PureOps.Ideal.Laws

namespace Cert.LibPlainMatmul

open Idealize.ShloMosaic Idealize.ShloMosaic.ValueIdx

/-- The product of an `M × K` and a `K × N` matrix into a zero accumulator, read at `(i, j)`. -/
theorem matmul_zero_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    FloatOps.matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        split
        · exact absurd ‹_› List.not_mem_nil
        · split
          · rfl
          · exact absurd (List.mem_singleton.mpr rfl) ‹_›
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        split
        · exact absurd ‹_› List.not_mem_nil
        · split
          · rfl
          · exact absurd (List.mem_singleton.mpr rfl) ‹_›)
  rw [el, er]

end Cert.LibPlainMatmul
-- ==== Proof.BodyAtIndex.lean ====
/-
  The kernel body's stored block, read at an index.

  At a grid point the body holds a `256 × 5120` slab `x₀` of the input (one batch, 256 consecutive positions), all of
  `W_A` (`64 × 5120`) and `W_B` (`5120 × 64`), and the batch's two gate rows `a` (`1 × 1 × 64`) and `c` (`1 × 1 × 5120`). It
  stores, at row `p` and feature `q` of the output slab,

      ((Σ_r ((Σ_d x₀ (p, d) · W_A (r, d)) · a (r)) · W_B (q, r)) · c (q)) · 2.

  Both matrix products contract the last axis of their left operand with a transposed weight matrix and start from a
  zero accumulator, so each is a plain sum over the contracted index; the changes of float format are the identity at
  the extended reals; each gate row is repeated down the 256 rows; the unit leading axis of the slabs is dropped and put
  back by shape casts that keep the row-major position.
-/
import proofs.«109962_j67353677136188_2_alg».proof.Proof.Gen.KernelIdeal.Skeleton
import proofs.«109962_j67353677136188_2_alg».proof.Proof.LibPlainMatmul
import proofs.«109962_j67353677136188_2_alg».proof.Proof.GatedLowRank
import Idealize.ShloMosaic.Lib.ValueLayout
import Idealize.ShloMosaic.Lib.ValueIdx

noncomputable section

namespace Cert.BodyAtIndex

open Cert.KernelIdeal Cert.KernelIdeal.Gen Idealize.ShloMosaic Idealize.ShloMosaic.ValueIdx

/-- The stored block at `(u, p, q)` (`u` the unit leading coordinate) from the five loaded blocks. -/
theorem stored_apply (v0 : Vec Ideal S1x256x5120 .f32) (v3 : Vec Ideal S64x5120 .f32) (v5 : Vec Ideal S5120x64 .f32)
    (v9 : Vec Ideal S1x1x64 .f32) (v16 : Vec Ideal S1x1x5120 .f32) (u : Fin 1) (p : Fin 256) (q : Fin 5120) :
    k0_pay1 (F := Ideal) v0 v3 v5 v9 v16 (ix3 u p q)
      = ((∑ r : Fin 64, ((∑ d : Fin 5120, v0 (ix3 (0 : Fin 1) p d) * v3 (ix2 r d)) * v9 (ix3 (0 : Fin 1) (0 : Fin 1) r))
            * v5 (ix2 q r)) * v16 (ix3 (0 : Fin 1) (0 : Fin 1) q)) * Cert.GatedLowRank.two := by
  unfold k0_pay1
  dsimp only
  refine (shapeCast_ab_1ab_apply _ _ u p q).trans ?_
  rw [mulf_apply, mulf_apply]
  refine congrArg₂ (· * ·) (congrArg₂ (· * ·) ?_ ?_) rfl
  · -- the second product: the scaled projections against the rows of W_B
    refine (Cert.LibPlainMatmul.matmul_zero_apply _ rfl rfl rfl rfl rfl rfl none _ _ p q).trans
      (Finset.sum_congr rfl fun r _ => ?_)
    refine congrArg₂ (· * ·) ?_ (transpose_ix2_apply _ _ r q)
    rw [truncf_apply, mulf_apply]
    refine congrArg₂ (· * ·) ?_ ?_
    · -- the first product: the slab's row against the rows of W_A
      refine (Cert.LibPlainMatmul.matmul_zero_apply _ rfl rfl rfl rfl rfl rfl none _ _ p r).trans
        (Finset.sum_congr rfl fun d _ => ?_)
      exact congrArg₂ (· * ·) (shapeCast_1ab_ab_apply v0 _ p d) (transpose_ix2_apply _ _ d r)
    · exact (broadcastTo_1b_ab_apply _ _ p r).trans (shapeCast_1ab_ab_apply v9 _ (0 : Fin 1) r)
  · exact (broadcastTo_1b_ab_apply _ _ p q).trans (shapeCast_1ab_ab_apply v16 _ (0 : Fin 1) q)

end Cert.BodyAtIndex

end
-- ==== Proof.LibUnitMiddleAxis.lean ====
/-
  A unit middle axis inserted into a matrix by a shape cast, read at an index given by coordinates, for any element type
  and any extents: the `[a, b]` array cast to `[a, 1, b]` holds at `(p, u, j)` what the matrix holds at `(p, j)`, since both
  entries sit at row-major position `p · b + j` (the unit coordinate `u` is 0).
-/
import Idealize.ShloMosaic.Lib.ValueLayout

namespace Cert.LibUnitMiddleAxis

open Idealize.ShloMosaic Idealize.ShloMosaic.ValueIdx

variable {α : Type}

/-- `[a, b] → [a, 1, b]` read at `(p, u, j)` is the operand at `(p, j)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (j : Fin b) :
    shapeCast ⟨3, ![a, 1, b]⟩ x h (ix3 p u j) = x (ix2 p j) :=
  shapeCast_apply x h _ _ (by
    have hu : u.val = 0 := by omega
    rw [Shape.rowMajor_val_three, Shape.rowMajor_val_two]
    show p.val * b + j.val = (p.val * 1 + u.val) * b + j.val
    rw [hu, Nat.mul_one, Nat.add_zero])

end Cert.LibUnitMiddleAxis
-- ==== Proof.HostGates.lean ====
/-
  The two gate arrays the kernel's region finds.

  Before the region, the kernel's program normalises each batch's 256 control features (mean, variance, reciprocal square
  root, scale and shift), maps them to 128 features by a matrix product and a bias, and maps those by two more matrix
  products to the gates: 64 numbers and 5120 numbers per batch. These are, operation for operation and word for word,
  the operations the reference starts with; so the arrays are the reference's own two gate stages of the same
  arguments. The kernel then inserts a unit middle axis (`[8, 64] → [8, 1, 64]`, `[8, 5120] → [8, 1, 5120]`), which keeps
  every entry's row-major position: entry `(b, 0, r)` of the reshaped array is entry `(b, r)`.
-/
import proofs.«109962_j67353677136188_2_alg».proof.Proof.Gen.KernelIdeal.Frame
import proofs.«109962_j67353677136188_2_alg».proof.Proof.Gen.ReferenceIdeal.Read
import proofs.«109962_j67353677136188_2_alg».proof.Proof.LibUnitMiddleAxis
import Idealize.ShloMosaic.Lib.StableHlo.Run
import Idealize.ShloMosaic.Lib.ValueLayout
import Idealize.ShloMosaic.Lib.ValueIdx

noncomputable section

namespace Cert.HostGates

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

/-- The first gate, with its unit middle axis, as the region finds it. -/
theorem gateA_array (c : Dev nD) :
    (V m c main_v33 : S8x1x64.Idx → EReal)
      = shapeCast S8x1x64 (Cert.ReferenceIdeal.Read.val_main_v30 (F := Ideal) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))) shapeCasts_S8x64_S8x1x64 := by
  dsimp only [Gen.V, Gen.hostOps0]
  after_results_simp
  rfl

/-- The second gate, with its unit middle axis, as the region finds it. -/
theorem gateB_array (c : Dev nD) :
    (V m c main_v34 : S8x1x5120.Idx → EReal)
      = shapeCast S8x1x5120 (Cert.ReferenceIdeal.Read.val_main_v32 (F := Ideal) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg7))) shapeCasts_S8x5120_S8x1x5120 := by
  dsimp only [Gen.V, Gen.hostOps0]
  after_results_simp
  rfl

/-- Entry `(b, 0, r)` of the first gate array is the reference's first gate stage at `(b, r)`. -/
theorem gateA_entry (c : Dev nD) (b : Fin 8) (u : Fin 1) (r : Fin 64) :
    V m c main_v33 (ix3 b u r)
      = Cert.ReferenceIdeal.Read.val_main_v30 (F := Ideal) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (ix2 b r) :=
  (congrFun (gateA_array m c) (ix3 b u r)).trans (Cert.LibUnitMiddleAxis.shapeCast_ab_a1b_apply _ _ b u r)

/-- Entry `(b, 0, o)` of the second gate array is the reference's second gate stage at `(b, o)`. -/
theorem gateB_entry (c : Dev nD) (b : Fin 8) (u : Fin 1) (o : Fin 5120) :
    V m c main_v34 (ix3 b u o)
      = Cert.ReferenceIdeal.Read.val_main_v32 (F := Ideal) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg7)) (ix2 b o) :=
  (congrFun (gateB_array m c) (ix3 b u o)).trans (Cert.LibUnitMiddleAxis.shapeCast_ab_a1b_apply _ _ b u o)

end Cert.HostGates

end
-- ==== Proof.KernelOut.lean ====
/-
  From the blocks the kernel writes to its whole output array.

  The grid has 8 × 8 points. Point `(b, s)` holds the input slab of batch `b`, positions `256 s … 256 s + 255`, all of
  `W_A` and `W_B`, and the rows of batch `b` of the two gate arrays; it writes the output slab of the same batch and
  positions. Entry `(0, p, q)` of what it writes is therefore the gated low-rank map at `(b, 256 s + p, q)`: every block
  the body reads sits at the block index of the output block (on the axes it has) and at 0 on the others. The 64 output
  slabs tile the `[8, 2048, 5120]` array — position `s'` of batch `b` lies in the slab of point `(b, s' / 256)` — so after
  the run the whole array is that map of the arrays the region found.
-/
import proofs.«109962_j67353677136188_2_alg».proof.Proof.Gen.KernelIdeal.Value
import proofs.«109962_j67353677136188_2_alg».proof.Proof.BodyAtIndex
import proofs.«109962_j67353677136188_2_alg».proof.Proof.HostGates
import Idealize.ShloMosaic.Lib.Pipeline.Value

set_option maxRecDepth 16384

noncomputable section

namespace Cert.KernelOut

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- One entry of the stored block is the gated low-rank map at an index `i` of the whole array, as soon as each loaded
    block holds, at the coordinates that entry reads, what the whole arrays hold at the coordinates of `i`. -/
theorem stored_entry (x : (⟨3, ![8, 2048, 5120]⟩ : Shape).Idx → EReal) (wa : (⟨2, ![64, 5120]⟩ : Shape).Idx → EReal)
    (wb : (⟨2, ![5120, 64]⟩ : Shape).Idx → EReal) (gA : (⟨2, ![8, 64]⟩ : Shape).Idx → EReal)
    (gB : (⟨2, ![8, 5120]⟩ : Shape).Idx → EReal)
    (v0 : Vec Ideal S1x256x5120 .f32) (v3 : Vec Ideal S64x5120 .f32) (v5 : Vec Ideal S5120x64 .f32)
    (v9 : Vec Ideal S1x1x64 .f32) (v16 : Vec Ideal S1x1x5120 .f32)
    (i : (⟨3, ![8, 2048, 5120]⟩ : Shape).Idx) (u : Fin 1) (p : Fin 256) (q : Fin 5120)
    (h0 : ∀ d : Fin 5120, v0 (ix3 (0 : Fin 1) p d) = x (ix3 (i 0) (i 1) d))
    (h3 : ∀ (r : Fin 64) (d : Fin 5120), v3 (ix2 r d) = wa (ix2 r d))
    (h5 : ∀ r : Fin 64, v5 (ix2 q r) = wb (ix2 (i 2) r))
    (h9 : ∀ r : Fin 64, v9 (ix3 (0 : Fin 1) (0 : Fin 1) r) = gA (ix2 (i 0) r))
    (h16 : v16 (ix3 (0 : Fin 1) (0 : Fin 1) q) = gB (ix2 (i 0) (i 2))) :
    k0_pay1 (F := Ideal) v0 v3 v5 v9 v16 (ix3 u p q) = Cert.GatedLowRank.out x wa wb gA gB i := by
  rw [Cert.BodyAtIndex.stored_apply]
  unfold Cert.GatedLowRank.out Cert.GatedLowRank.proj
  simp only [h0, h3, h5, h9, h16]

/-- The two gate arrays as the region finds them, with the unit middle axis read at 0. -/
def gateA (c : Dev nD) : (⟨2, ![8, 64]⟩ : Shape).Idx → EReal := fun i => V m c main_v33 (ix3 (i 0) (0 : Fin 1) (i 1))
def gateB (c : Dev nD) : (⟨2, ![8, 5120]⟩ : Shape).Idx → EReal := fun i => V m c main_v34 (ix3 (i 0) (0 : Fin 1) (i 1))

/-- The whole output array, from the arrays the region finds. -/
def whole (c : Dev nD) : S8x2048x5120.Idx → EReal :=
  Cert.GatedLowRank.out (V m c main_arg0) (V m c main_arg8) (V m c main_arg9) (gateA m c) (gateB m c)

/-- The output slab's block index at a grid point stays in the grid, and is 0 on the feature axis. -/
theorem idx_out : ∀ t : Fin cfg0.N, win0_5.index t (2 : Fin 3) = 0 ∧ win0_5.index t (0 : Fin 3) ≤ 7 ∧ win0_5.index t (1 : Fin 3) ≤ 7 :=
  (by decide +kernel : ∀ t : Fin grid0.N, _)

/-- The input slab moves with the output slab (decided over the 64 points). -/
theorem idx_x : ∀ t : Fin cfg0.N, win0_0.index t (0 : Fin 3) = win0_5.index t (0 : Fin 3)
    ∧ win0_0.index t (1 : Fin 3) = win0_5.index t (1 : Fin 3) ∧ win0_0.index t (2 : Fin 3) = 0 :=
  (by decide +kernel : ∀ t : Fin grid0.N, _)

/-- The two weight matrices are one block each, at every point. -/
theorem idx_w : ∀ t : Fin cfg0.N, win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The gate rows are those of the output slab's batch. -/
theorem idx_g : ∀ t : Fin cfg0.N, win0_3.index t (0 : Fin 3) = win0_5.index t (0 : Fin 3) ∧ win0_3.index t (1 : Fin 3) = 0
    ∧ win0_3.index t (2 : Fin 3) = 0 ∧ win0_4.index t (0 : Fin 3) = win0_5.index t (0 : Fin 3)
    ∧ win0_4.index t (1 : Fin 3) = 0 ∧ win0_4.index t (2 : Fin 3) = 0 :=
  (by decide +kernel : ∀ t : Fin grid0.N, _)

/-- Every output slab is some point's. -/
theorem idx_onto : ∀ (q0 : Fin 8) (q1 : Fin 8), ∃ t : Fin cfg0.N, win0_5.index t = ![q0.val, q1.val, 0] :=
  (by decide +kernel : ∀ (q0 : Fin 8) (q1 : Fin 8), ∃ t : Fin grid0.N, win0_5.index t = ![q0.val, q1.val, 0])

/-- Row `j 1` of the input slab at point `t` is the row of `x` at the batch and position of entry `j` of the output slab. -/
theorem read_x (c : Dev nD) (t : Fin cfg0.N) (j : S1x256x5120.Idx) (d : Fin 5120) :
    iblk m c 0 t (ix3 (0 : Fin 1) (j 1) d)
      = V m c main_arg0 (ix3 ((((cfg0.win 5).blk t).view.emb j) 0) ((((cfg0.win 5).blk t).view.emb j) 1) d) := by
  obtain ⟨e0, e1, e2⟩ := idx_x t
  have hj0 : (j 0).val < 1 := (j 0).isLt
  show V m c main_arg0 (((cfg0.win 0).blk t).view.emb (ix3 (0 : Fin 1) (j 1) d)) = _
  refine congrArg _ (funext fun a => Fin.ext ?_)
  match a with
  | ⟨0, _⟩ => show win0_0.index t (0 : Fin 3) * 1 + 1 * 0 = win0_5.index t (0 : Fin 3) * 1 + 1 * (j 0).val; omega
  | ⟨1, _⟩ => show win0_0.index t (1 : Fin 3) * 256 + 1 * (j 1).val = win0_5.index t (1 : Fin 3) * 256 + 1 * (j 1).val; omega
  | ⟨2, _⟩ => show win0_0.index t (2 : Fin 3) * 5120 + 1 * d.val = d.val; omega

/-- The block of `W_A` at any point is `W_A`. -/
theorem read_wa (c : Dev nD) (t : Fin cfg0.N) (r : Fin 64) (d : Fin 5120) :
    iblk m c 1 t (ix2 r d) = V m c main_arg8 (ix2 r d) := by
  obtain ⟨e0, e1, -, -⟩ := idx_w t
  show V m c main_arg8 (((cfg0.win 1).blk t).view.emb (ix2 r d)) = _
  refine congrArg _ (funext fun a => Fin.ext ?_)
  match a with
  | ⟨0, _⟩ => show win0_1.index t (0 : Fin 2) * 64 + 1 * r.val = r.val; omega
  | ⟨1, _⟩ => show win0_1.index t (1 : Fin 2) * 5120 + 1 * d.val = d.val; omega

/-- The block of `W_B` at any point is `W_B`; the row read is the output feature of entry `j`. -/
theorem read_wb (c : Dev nD) (t : Fin cfg0.N) (j : S1x256x5120.Idx) (r : Fin 64) :
    iblk m c 2 t (ix2 (j 2) r) = V m c main_arg9 (ix2 ((((cfg0.win 5).blk t).view.emb j) 2) r) := by
  obtain ⟨-, -, e0, e1⟩ := idx_w t
  obtain ⟨e52, -, -⟩ := idx_out t
  show V m c main_arg9 (((cfg0.win 2).blk t).view.emb (ix2 (j 2) r)) = _
  refine congrArg _ (funext fun a => Fin.ext ?_)
  match a with
  | ⟨0, _⟩ => show win0_2.index t (0 : Fin 2) * 5120 + 1 * (j 2).val = win0_5.index t (2 : Fin 3) * 5120 + 1 * (j 2).val; omega
  | ⟨1, _⟩ => show win0_2.index t (1 : Fin 2) * 64 + 1 * r.val = r.val; omega

/-- The first gate row at point `t` is the row of the batch of entry `j`. -/
theorem read_gateA (c : Dev nD) (t : Fin cfg0.N) (j : S1x256x5120.Idx) (r : Fin 64) :
    iblk m c 3 t (ix3 (0 : Fin 1) (0 : Fin 1) r) = gateA m c (ix2 ((((cfg0.win 5).blk t).view.emb j) 0) r) := by
  obtain ⟨e0, e1, e2, -, -, -⟩ := idx_g t
  have hj0 : (j 0).val < 1 := (j 0).isLt
  show V m c main_v33 (((cfg0.win 3).blk t).view.emb (ix3 (0 : Fin 1) (0 : Fin 1) r))
    = V m c main_v33 (ix3 ((((cfg0.win 5).blk t).view.emb j) 0) (0 : Fin 1) r)
  refine congrArg _ (funext fun a => Fin.ext ?_)
  match a with
  | ⟨0, _⟩ => show win0_3.index t (0 : Fin 3) * 1 + 1 * 0 = win0_5.index t (0 : Fin 3) * 1 + 1 * (j 0).val; omega
  | ⟨1, _⟩ => show win0_3.index t (1 : Fin 3) * 1 + 1 * 0 = 0; omega
  | ⟨2, _⟩ => show win0_3.index t (2 : Fin 3) * 64 + 1 * r.val = r.val; omega

/-- The second gate row at point `t`, at the output feature of entry `j`, is the entry of the batch and feature of `j`. -/
theorem read_gateB (c : Dev nD) (t : Fin cfg0.N) (j : S1x256x5120.Idx) :
    iblk m c 4 t (ix3 (0 : Fin 1) (0 : Fin 1) (j 2))
      = gateB m c (ix2 ((((cfg0.win 5).blk t).view.emb j) 0) ((((cfg0.win 5).blk t).view.emb j) 2)) := by
  obtain ⟨-, -, -, e0, e1, e2⟩ := idx_g t
  obtain ⟨e52, -, -⟩ := idx_out t
  have hj0 : (j 0).val < 1 := (j 0).isLt
  show V m c main_v34 (((cfg0.win 4).blk t).view.emb (ix3 (0 : Fin 1) (0 : Fin 1) (j 2)))
    = V m c main_v34 (ix3 ((((cfg0.win 5).blk t).view.emb j) 0) (0 : Fin 1) ((((cfg0.win 5).blk t).view.emb j) 2))
  refine congrArg _ (funext fun a => Fin.ext ?_)
  match a with
  | ⟨0, _⟩ => show win0_4.index t (0 : Fin 3) * 1 + 1 * 0 = win0_5.index t (0 : Fin 3) * 1 + 1 * (j 0).val; omega
  | ⟨1, _⟩ => show win0_4.index t (1 : Fin 3) * 1 + 1 * 0 = 0; omega
  | ⟨2, _⟩ => show win0_4.index t (2 : Fin 3) * 5120 + 1 * (j 2).val = win0_5.index t (2 : Fin 3) * 5120 + 1 * (j 2).val; omega

/-- What point `t` writes back is block `t` of the whole map. -/
theorem flushed_eq (c : Dev nD) (t : Fin cfg0.N) :
    (dats m 0 c).flushed 5 t = ((cfg0.win 5).blk t).view.read (Elt Ideal) (whole m c) := by
  rw [Cert.KernelIdeal.Value.flushed5]
  unfold out0_5
  rw [View.canon_unit_zero hz3]
  simp only [View.ld_unit_zero (S := S1x256x5120) hz3, View.ld_unit_zero (S := S64x5120) hz2,
    View.ld_unit_zero (S := S5120x64) hz2, View.ld_unit_zero (S := S1x1x64) hz3, View.ld_unit_zero (S := S1x1x5120) hz3]
  funext j
  show k0_pay1 (F := Ideal) (iblk m c 0 t) (iblk m c 1 t) (iblk m c 2 t) (iblk m c 3 t) (iblk m c 4 t) j
    = whole m c (((cfg0.win 5).blk t).view.emb j)
  refine (congrArg (k0_pay1 (F := Ideal) (iblk m c 0 t) (iblk m c 1 t) (iblk m c 2 t) (iblk m c 3 t) (iblk m c 4 t))
    (eq_ix3 j)).trans ?_
  exact stored_entry (V m c main_arg0) (V m c main_arg8) (V m c main_arg9) (gateA m c) (gateB m c)
    (iblk m c 0 t) (iblk m c 1 t) (iblk m c 2 t) (iblk m c 3 t) (iblk m c 4 t)
    (((cfg0.win 5).blk t).view.emb j) (j 0) (j 1) (j 2)
    (read_x m c t j) (read_wa m c t) (read_wb m c t j) (read_gateA m c t j) (read_gateB m c t j)

/-- An index of the output array is in point `t`'s slab iff each coordinate is in the slab's range on its axis. -/
theorem mem_blk (t : Fin cfg0.N) (i : S8x2048x5120.Idx) :
    i ∈ ((cfg0.win 5).blk t).view.set ↔ ∀ a : Fin 3, win0_5.index t a * S1x256x5120.size a ≤ (i a).val
      ∧ (i a).val < win0_5.index t a * S1x256x5120.size a + S1x256x5120.size a := by
  show i ∈ ((View.whole main_v35).slice (win0_5.rect t)).set ↔ _
  rw [View.set_slice_whole, Rect.mem_set_unit]
  exact Iff.rfl

/-- The 64 slabs cover the output array: position `s'` of batch `b` is in the slab of the point at `(b, s' / 256)`. -/
theorem cover (i : S8x2048x5120.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 5120 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 5120 ≤ (i 2).val ∧ (i 2).val < win0_5.index t (2 : Fin 3) * 5120 + 5120; omega

/-- The output array after the run is the whole map of the arrays the region found. -/
theorem final (c : Dev nD) : (dats m 0 c).arrAt 5 cfg0.N = whole m c :=
  (dats m 0 c).arrAt_eq_of_cover 5 (whole m c) (fun t _ => flushed_eq m c t) (cover)

/-- The arrays the region finds are the arguments as launched (no host operation before the region writes them) and the
    reference's two gate stages of them (the unit middle axis read away). -/
theorem whole_eq (c : Dev nD) :
    whole m c = Cert.GatedLowRank.out (m ((c : Thread nD τ).loc main_arg0)) (m ((c : Thread nD τ).loc main_arg8))
      (m ((c : Thread nD τ).loc main_arg9))
      (Cert.ReferenceIdeal.Read.val_main_v30 (F := Ideal) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)))
      (Cert.ReferenceIdeal.Read.val_main_v32 (F := Ideal) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg7))) := by
  have hA : gateA m c = Cert.ReferenceIdeal.Read.val_main_v30 (F := Ideal) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) :=
    funext fun i => (Cert.HostGates.gateA_entry m c (i 0) (0 : Fin 1) (i 1)).trans (congrArg _ (eq_ix2 i).symm)
  have hB : gateB m c = Cert.ReferenceIdeal.Read.val_main_v32 (F := Ideal) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg7)) :=
    funext fun i => (Cert.HostGates.gateB_entry m c (i 0) (0 : Fin 1) (i 1)).trans (congrArg _ (eq_ix2 i).symm)
  unfold whole
  rw [hA, hB, V_main_arg0, V_main_arg8, V_main_arg9]

end Cert.KernelOut

end
-- ==== Proof.lean ====
/-
  The gated low-rank kernel against its reference: the five claims.

  Both programs compute, at batch `b`, position `s` and output feature `o`,

      ((Σ_r ((Σ_d x (b, s, d) · W_A (r, d)) · g_A (b, r)) · W_B (o, r)) · g_B (b, o)) · 2

  on the extended reals, where the gates `g_A` (64 per batch) and `g_B` (5120 per batch) come from the batch's 256
  control features by a normalisation and three small matrix products. The gate computation is the same sequence of host
  operations in both programs, so the two gate arrays are the same terms of the arguments. The kernel tiles the
  positions into 8 slabs of 256 per batch and computes each output slab from the input slab with two matrix products into
  zero accumulators; the reference takes the two products over the whole arrays. A matrix product into zero is a plain
  sum over the contracted index and a change of float format is the identity at the extended reals, so entry by entry the
  two sides are the same expression, products and sums in the same order and grouping: nothing is rearranged, and the
  finiteness of the inputs is not used.

  The three frames are the generated ones (the reference's is its generated run with the result dropped); the kernel is
  its own idealization, so there is nothing to preserve; the value claim sets the kernel's run, with its output array
  read slab by slab, beside the reference's run read one operation at a time.
-/
import proofs.«109962_j67353677136188_2_alg».proof.Defs
import proofs.«109962_j67353677136188_2_alg».proof.Proof.Gen.Kernel
import proofs.«109962_j67353677136188_2_alg».proof.Proof.Gen.Kernel.Skeleton
import proofs.«109962_j67353677136188_2_alg».proof.Proof.Gen.Kernel.Launch
import proofs.«109962_j67353677136188_2_alg».proof.Proof.Gen.Kernel.Points
import proofs.«109962_j67353677136188_2_alg».proof.Proof.Gen.Kernel.Frame
import proofs.«109962_j67353677136188_2_alg».proof.Proof.Gen.KernelIdeal
import proofs.«109962_j67353677136188_2_alg».proof.Proof.Gen.KernelIdeal.Skeleton
import proofs.«109962_j67353677136188_2_alg».proof.Proof.Gen.KernelIdeal.Launch
import proofs.«109962_j67353677136188_2_alg».proof.Proof.Gen.KernelIdeal.Points
import proofs.«109962_j67353677136188_2_alg».proof.Proof.Gen.KernelIdeal.Frame
import proofs.«109962_j67353677136188_2_alg».proof.Proof.Gen.ReferenceIdeal
import proofs.«109962_j67353677136188_2_alg».proof.Proof.Gen.Pre_finite_inputs
import proofs.«109962_j67353677136188_2_alg».proof.Proof.Gen.KernelIdeal.Value
import proofs.«109962_j67353677136188_2_alg».proof.Proof.Gen.ReferenceIdeal.Run
import proofs.«109962_j67353677136188_2_alg».proof.Proof.Gen.ReferenceIdeal.Read
import proofs.«109962_j67353677136188_2_alg».proof.Proof.GatedLowRank
import proofs.«109962_j67353677136188_2_alg».proof.Proof.ReferenceOut
import proofs.«109962_j67353677136188_2_alg».proof.Proof.KernelOut
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel is read at the extended reals as printed: no operation was rewritten. -/
theorem preserves : Cert.preserves_Kernel_KernelIdeal := trivial

/-- Both runs end with the gated low-rank map of the arguments and of the two gate stages of the arguments: the
    kernel's output array slab by slab, the reference's result operation by operation. -/
theorem algebraic : Cert.algebraic_KernelIdeal_ReferenceIdeal := by
  intro m ρ m' ρ' _ hagree
  refine ⟨fun c => Cert.GatedLowRank.out (m ((c : Thread Cert.KernelIdeal.nD Cert.KernelIdeal.τ).loc Cert.KernelIdeal.main_arg0))
      (m ((c : Thread Cert.KernelIdeal.nD Cert.KernelIdeal.τ).loc Cert.KernelIdeal.main_arg8))
      (m ((c : Thread Cert.KernelIdeal.nD Cert.KernelIdeal.τ).loc Cert.KernelIdeal.main_arg9))
      (Cert.ReferenceIdeal.Read.val_main_v30 (F := Ideal)
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6)))
      (Cert.ReferenceIdeal.Read.val_main_v32 (F := Ideal)
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg7))), ?_, ?_⟩
  · exact (θ_run Cert.KernelIdeal.defs _ _).mono
      (fun r h c => ⟨(h c).1.trans ((Cert.KernelOut.final m c).trans (Cert.KernelOut.whole_eq m c)), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v42_eq, Cert.ReferenceOut.result_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
